-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x2048x7x7 : Shape := ⟨4, ![128, 2048, 7, 7]⟩
abbrev S_ : Shape := ⟨0, ![]⟩

class Facts : Prop where
  bcast_S_S128x2048x7x7 : S_.BroadcastsInDim S128x2048x7x7 (![] : Fin 0 → Fin S128x2048x7x7.rank)
  reducesTo_S128x2048x7x7_S_d0_1_2_3 : S128x2048x7x7.ReducesTo [0, 1, 2, 3] S_
  h_S_ : 0 < S_.numel

variable [Facts]

def fn {F : FTy → Type} [FloatOps F] (main_arg0 : FVec F S128x2048x7x7 .f32) : IVec S_ 1 :=
  let main_v0 : FVec F S128x2048x7x7 .f32 := Host.absf main_arg0
  let main_cst : FVec F S_ .f32 := constant S_ .f32 0x7F800000#32
  let main_v1 : FVec F S128x2048x7x7 .f32 := broadcastInDim S128x2048x7x7 ![] bcast_S_S128x2048x7x7 main_cst
  let main_v2 : IVec S128x2048x7x7 1 := cmpf .olt main_v0 main_v1
  let main_c : IVec S_ 1 := constantI S_ 1 1#1
  let main_v3 : IVec S_ 1 := (fun x v => Host.reduce IntOp.andi x v reducesTo_S128x2048x7x7_S_d0_1_2_3 h_S_) main_v2 main_c
  main_v3
-- ==== Kernel.lean ====
abbrev S128x2048x7x7 : Shape := ⟨4, ![128, 2048, 7, 7]⟩
abbrev S7x7x128x2048 : Shape := ⟨4, ![7, 7, 128, 2048]⟩
abbrev S128x2048 : Shape := ⟨2, ![128, 2048]⟩
abbrev S7x7x32x2048 : Shape := ⟨4, ![7, 7, 32, 2048]⟩
abbrev S32x2048 : Shape := ⟨2, ![32, 2048]⟩
abbrev S7x32x2048 : Shape := ⟨3, ![7, 32, 2048]⟩

abbrev nBuf : Space → Nat
  | .hbm => 3
  | .vmem => 4
  | .smem => 0
  | _ => 0

abbrev bufTy : (tb : Table) → Fin (tcTables nBuf tb) → BufTy
  | .hbm, ⟨0, _⟩ => ⟨S128x2048x7x7, .f32⟩
  | .hbm, ⟨1, _⟩ => ⟨S7x7x128x2048, .f32⟩
  | .hbm, ⟨2, _⟩ => ⟨S128x2048, .f32⟩
  | .local _ .vmem, ⟨0, _⟩ => ⟨S7x7x32x2048, .f32⟩
  | .local _ .vmem, ⟨1, _⟩ => ⟨S7x7x32x2048, .f32⟩
  | .local _ .vmem, ⟨2, _⟩ => ⟨S32x2048, .f32⟩
  | .local _ .vmem, ⟨3, _⟩ => ⟨S32x2048, .f32⟩
  | _, _ => ⟨S128x2048x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S7x7x32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  transposes_S128x2048x7x7_S7x7x128x2048_2_3_0_1 : S128x2048x7x7.Transposes [2, 3, 0, 1] S7x7x128x2048
  inb_S7x7x32x2048_S7x7x32x2048_0_0_0_0 : ∀ a, (![0, 0, 0, 0] : Fin 4 → Nat) a + S7x7x32x2048.size a ≤ S7x7x32x2048.size a
  h_S7x7x32x2048 : 0 < S7x7x32x2048.numel
  shapeCasts_S7x7x32x2048_S7x7x32x2048 : S7x7x32x2048.ShapeCasts S7x7x32x2048
  reduces_S7x7x32x2048_S7x32x2048 : S7x7x32x2048.Reduces [0] S7x32x2048
  reduces_S7x32x2048_S32x2048 : S7x32x2048.Reduces [0] S32x2048
  inb_S32x2048_S32x2048_0_0 : ∀ a, (![0, 0] : Fin 2 → Nat) a + S32x2048.size a ≤ S32x2048.size a
  h_S32x2048 : 0 < S32x2048.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S7x7x32x2048.size a ≤ S7x7x128x2048.size a
  hwx0_0 : ∀ i : grid0.Coords, EltTy.bits .f32 = 32 ∨ (Rect.block (s := S7x7x128x2048) S7x7x32x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x2048.size a ≤ S128x2048.size a
  hwx0_1 : ∀ i : grid0.Coords, EltTy.bits .f32 = 32 ∨ (Rect.block (s := S128x2048) S32x2048.size (cc0_transform_1 i) (hinb0_1 i)).WholeWords (EltTy.packing .f32)

variable [Facts₀]

abbrev win0_0 : Pipeline.Window sig grid0 :=
  Pipeline.Window.ofSpec (Memref.whole main_v0) S7x7x32x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S128x2048x7x7 : Shape := ⟨4, ![128, 2048, 7, 7]⟩
abbrev S262144x49 : Shape := ⟨2, ![262144, 49]⟩
abbrev S262144x1 : Shape := ⟨2, ![262144, 1]⟩
abbrev S8192x49 : Shape := ⟨2, ![8192, 49]⟩
abbrev S8192x1 : Shape := ⟨2, ![8192, 1]⟩
abbrev S512x49 : Shape := ⟨2, ![512, 49]⟩
abbrev S512 : Shape := ⟨1, ![512]⟩
abbrev S512x1 : Shape := ⟨2, ![512, 1]⟩
abbrev S262144 : Shape := ⟨1, ![262144]⟩
abbrev S128x2048 : Shape := ⟨2, ![128, 2048]⟩

abbrev nBuf : Space → Nat
  | .hbm => 5
  | .vmem => 4
  | .smem => 0
  | _ => 0

abbrev bufTy : (tb : Table) → Fin (tcTables nBuf tb) → BufTy
  | .hbm, ⟨0, _⟩ => ⟨S128x2048x7x7, .f32⟩
  | .hbm, ⟨1, _⟩ => ⟨S262144x49, .f32⟩
  | .hbm, ⟨2, _⟩ => ⟨S262144x1, .f32⟩
  | .hbm, ⟨3, _⟩ => ⟨S262144, .f32⟩
  | .hbm, ⟨4, _⟩ => ⟨S128x2048, .f32⟩
  | .local _ .vmem, ⟨0, _⟩ => ⟨S8192x49, .f32⟩
  | .local _ .vmem, ⟨1, _⟩ => ⟨S8192x49, .f32⟩
  | .local _ .vmem, ⟨2, _⟩ => ⟨S8192x1, .f32⟩
  | .local _ .vmem, ⟨3, _⟩ => ⟨S8192x1, .f32⟩
  | _, _ => ⟨S128x2048x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x49 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S128x2048x7x7_S262144x49 : S128x2048x7x7.ShapeCasts S262144x49
  inb_S8192x49_S512x49_0_0 : ∀ a, (![0, 0] : Fin 2 → Nat) a + S512x49.size a ≤ S8192x49.size a
  h_S512x49 : 0 < S512x49.numel
  shapeCasts_S512x49_S512x49 : S512x49.ShapeCasts S512x49
  reduces_S512x49_S512 : S512x49.Reduces [1] S512
  shapeCasts_S512_S512x1 : S512.ShapeCasts S512x1
  inb_S8192x1_S512x1_0_0 : ∀ a, (![0, 0] : Fin 2 → Nat) a + S512x1.size a ≤ S8192x1.size a
  h_S512x1 : 0 < S512x1.numel
  inb_S8192x49_S512x49_512_0 : ∀ a, (![512, 0] : Fin 2 → Nat) a + S512x49.size a ≤ S8192x49.size a
  inb_S8192x1_S512x1_512_0 : ∀ a, (![512, 0] : Fin 2 → Nat) a + S512x1.size a ≤ S8192x1.size a
  inb_S8192x49_S512x49_1024_0 : ∀ a, (![1024, 0] : Fin 2 → Nat) a + S512x49.size a ≤ S8192x49.size a
  inb_S8192x1_S512x1_1024_0 : ∀ a, (![1024, 0] : Fin 2 → Nat) a + S512x1.size a ≤ S8192x1.size a
  inb_S8192x49_S512x49_1536_0 : ∀ a, (![1536, 0] : Fin 2 → Nat) a + S512x49.size a ≤ S8192x49.size a
  inb_S8192x1_S512x1_1536_0 : ∀ a, (![1536, 0] : Fin 2 → Nat) a + S512x1.size a ≤ S8192x1.size a
  inb_S8192x49_S512x49_2048_0 : ∀ a, (![2048, 0] : Fin 2 → Nat) a + S512x49.size a ≤ S8192x49.size a
  inb_S8192x1_S512x1_2048_0 : ∀ a, (![2048, 0] : Fin 2 → Nat) a + S512x1.size a ≤ S8192x1.size a
  inb_S8192x49_S512x49_2560_0 : ∀ a, (![2560, 0] : Fin 2 → Nat) a + S512x49.size a ≤ S8192x49.size a
  inb_S8192x1_S512x1_2560_0 : ∀ a, (![2560, 0] : Fin 2 → Nat) a + S512x1.size a ≤ S8192x1.size a
  inb_S8192x49_S512x49_3072_0 : ∀ a, (![3072, 0] : Fin 2 → Nat) a + S512x49.size a ≤ S8192x49.size a
  inb_S8192x1_S512x1_3072_0 : ∀ a, (![3072, 0] : Fin 2 → Nat) a + S512x1.size a ≤ S8192x1.size a
  inb_S8192x49_S512x49_3584_0 : ∀ a, (![3584, 0] : Fin 2 → Nat) a + S512x49.size a ≤ S8192x49.size a
  inb_S8192x1_S512x1_3584_0 : ∀ a, (![3584, 0] : Fin 2 → Nat) a + S512x1.size a ≤ S8192x1.size a
  inb_S8192x49_S512x49_4096_0 : ∀ a, (![4096, 0] : Fin 2 → Nat) a + S512x49.size a ≤ S8192x49.size a
  inb_S8192x1_S512x1_4096_0 : ∀ a, (![4096, 0] : Fin 2 → Nat) a + S512x1.size a ≤ S8192x1.size a
  inb_S8192x49_S512x49_4608_0 : ∀ a, (![4608, 0] : Fin 2 → Nat) a + S512x49.size a ≤ S8192x49.size a
  inb_S8192x1_S512x1_4608_0 : ∀ a, (![4608, 0] : Fin 2 → Nat) a + S512x1.size a ≤ S8192x1.size a
  inb_S8192x49_S512x49_5120_0 : ∀ a, (![5120, 0] : Fin 2 → Nat) a + S512x49.size a ≤ S8192x49.size a
  inb_S8192x1_S512x1_5120_0 : ∀ a, (![5120, 0] : Fin 2 → Nat) a + S512x1.size a ≤ S8192x1.size a
  inb_S8192x49_S512x49_5632_0 : ∀ a, (![5632, 0] : Fin 2 → Nat) a + S512x49.size a ≤ S8192x49.size a
  inb_S8192x1_S512x1_5632_0 : ∀ a, (![5632, 0] : Fin 2 → Nat) a + S512x1.size a ≤ S8192x1.size a
  inb_S8192x49_S512x49_6144_0 : ∀ a, (![6144, 0] : Fin 2 → Nat) a + S512x49.size a ≤ S8192x49.size a
  inb_S8192x1_S512x1_6144_0 : ∀ a, (![6144, 0] : Fin 2 → Nat) a + S512x1.size a ≤ S8192x1.size a
  inb_S8192x49_S512x49_6656_0 : ∀ a, (![6656, 0] : Fin 2 → Nat) a + S512x49.size a ≤ S8192x49.size a
  inb_S8192x1_S512x1_6656_0 : ∀ a, (![6656, 0] : Fin 2 → Nat) a + S512x1.size a ≤ S8192x1.size a
  inb_S8192x49_S512x49_7168_0 : ∀ a, (![7168, 0] : Fin 2 → Nat) a + S512x49.size a ≤ S8192x49.size a
  inb_S8192x1_S512x1_7168_0 : ∀ a, (![7168, 0] : Fin 2 → Nat) a + S512x1.size a ≤ S8192x1.size a
  inb_S8192x49_S512x49_7680_0 : ∀ a, (![7680, 0] : Fin 2 → Nat) a + S512x49.size a ≤ S8192x49.size a
  inb_S8192x1_S512x1_7680_0 : ∀ a, (![7680, 0] : Fin 2 → Nat) a + S512x1.size a ≤ S8192x1.size a
  shapeCasts_S262144x1_S262144 : S262144x1.ShapeCasts S262144
  shapeCasts_S262144_S128x2048 : S262144.ShapeCasts S128x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x49.size a ≤ S262144x49.size a
  hwx0_0 : ∀ i : grid0.Coords, EltTy.bits .f32 = 32 ∨ (Rect.block (s := S262144x49) S8192x49.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S262144x1.size a
  hwx0_1 : ∀ i : grid0.Coords, EltTy.bits .f32 = 32 ∨ (Rect.block (s := S262144x1) S8192x1.size (cc0_transform_1 i) (hinb0_1 i)).WholeWords (EltTy.packing .f32)

variable [Facts₀]

abbrev win0_0 : Pipeline.Window sig grid0 :=
  Pipeline.Window.ofSpec (Memref.whole main_v0) S8192x49.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== Proof.WindowSum.lean ====
/-
  Global average pooling of a [128, 2048, 7, 7] array over its 7 × 7 windows, on the extended reals.

  The pooled array holds, at (n, c), the sum of the 49 entries x[n, c, h, w] of that channel's window times a fixed
  scale. Both programs compute it; they differ only in how the 49 entries are enumerated:
    • one sums each window column over its 7 rows and then the 7 column sums,   Σ_w Σ_h x[n, c, h, w];
    • the other sums the window flattened row-major,                            Σ_k x[n, c, k / 7, k % 7].
  Addition on the extended reals is commutative and associative (a commutative monoid, the infinities included), so the
  two enumerations of one finite family have the same sum: `sum_cols_rows`. No finiteness of the entries is needed.
-/
import Idealize.ShloMosaic.PureOps.Ideal
import Idealize.ShloMosaic.Lib.ValueIdx
import Mathlib.Algebra.BigOperators.Fin
import Mathlib.Logic.Equiv.Fin.Basic

noncomputable section

open scoped BigOperators

namespace Cert.Pool

open Idealize.ShloMosaic Idealize.ShloMosaic.ValueIdx

/-- The argument array's shape [N, C, H, W] and the pooled array's [N, C]. -/
abbrev SX : Shape := ⟨4, ![128, 2048, 7, 7]⟩
abbrev SY : Shape := ⟨2, ![128, 2048]⟩

/-- The window row of the row-major window position `k` (of 49): `k / 7`. -/
def winRow (k : Fin 49) : Fin 7 := ⟨k.val / 7, by have := k.isLt; omega⟩
/-- Its window column: `k % 7`. -/
def winCol (k : Fin 49) : Fin 7 := ⟨k.val % 7, by have := k.isLt; omega⟩

/-- Summing each column over its rows and then the column sums enumerates the same 49 terms as summing the window
    flattened row-major: exchange the two sums, merge them into one over the pairs (h, w), and re-index the pairs by
    their row-major position `7 h + w`. Valid in any commutative monoid. -/
theorem sum_cols_rows {M : Type*} [AddCommMonoid M] (f : Fin 7 → Fin 7 → M) :
    ∑ w : Fin 7, ∑ h : Fin 7, f h w = ∑ k : Fin 49, f (winRow k) (winCol k) := by
  calc ∑ w : Fin 7, ∑ h : Fin 7, f h w = ∑ h : Fin 7, ∑ w : Fin 7, f h w := Finset.sum_comm
    _ = ∑ p : Fin 7 × Fin 7, f p.1 p.2 := (Fintype.sum_prod_type' f).symm
    _ = ∑ k : Fin 49, f (winRow k) (winCol k) :=
        Fintype.sum_equiv (finProdFinEquiv (m := 7) (n := 7)) _ _ (fun p => by
          have h1 : winRow (finProdFinEquiv p) = p.1 := Fin.ext (by
            show (finProdFinEquiv p).val / 7 = p.1.val
            rw [finProdFinEquiv_apply_val]; have := p.2.isLt; omega)
          have h2 : winCol (finProdFinEquiv p) = p.2 := Fin.ext (by
            show (finProdFinEquiv p).val % 7 = p.2.val
            rw [finProdFinEquiv_apply_val]; have := p.2.isLt; omega)
          rw [h1, h2])

/-- The scale both programs multiply the window sum by: the f32 word nearest 1/49, read as the exact dyadic it denotes.
    It is the same word in both programs, so its value is never needed. -/
abbrev scale : EReal := Ideal.ofBits .f32 0x3CA72F05#32

/-- THE SPECIFICATION. The pooled array of `x` with scale `s`: at (n, c), the sum of the channel's 49 window entries,
    enumerated row-major, times `s`. -/
def pooled (s : EReal) (x : SX.Idx → EReal) : SY.Idx → EReal := fun i =>
  (∑ k : Fin 49, x (ix4 (i 0) (i 1) (winRow k) (winCol k))) * s

end Cert.Pool

end
-- ==== Proof.KernelBlock.lean ====
/-
  One block of the first program's pooled output, read at an index.

  At a grid point the body loads a [7, 7, 32, 2048] block P of the transposed array (window row, window column, then 32
  batch rows and the 2048 channels), sums it over the window-row axis, sums the result over the window-column axis, and
  scales. On the extended reals each axis sum is the plain finite sum over that axis's coordinate, so the [32, 2048]
  block it leaves is, at (p, q),
      (Σ_w Σ_h P[h, w, p, q]) · scale  =  (Σ_k P[k / 7, k % 7, p, q]) · scale,
  the second form by the rearrangement law of the window sum.
-/
import proofs.«163363_g2000004496526760_pallasbulk_449_5_alg».proof.Proof.Gen.KernelIdeal.Value
import proofs.«163363_g2000004496526760_pallasbulk_449_5_alg».proof.Proof.WindowSum
import Idealize.ShloMosaic.PureOps.Ideal.Laws
import Idealize.ShloMosaic.Lib.Pipeline.Value

noncomputable section

open scoped BigOperators

namespace Cert.KernelIdeal.PoolValue

open Cert.KernelIdeal Cert.KernelIdeal.Gen Cert.Pool
open Idealize.ShloMosaic Idealize.ShloMosaic.ValueIdx

/-- The reduced index (w, p, q) with window row `h` put back in front is (h, w, p, q). -/
theorem lift_rows (h1 : S7x7x32x2048.Reduces [0] S7x32x2048) (w : Fin 7) (p : Fin 32) (q : Fin 2048)
    (h : Fin (S7x7x32x2048.size 0)) : h1.lift (ix3 w p q) h = ix4 (⟨h.val, h.isLt⟩ : Fin 7) w p q := by
  funext c; apply Fin.ext
  fin_cases c <;> rfl

/-- The reduced index (p, q) with window column `w` put back in front is (w, p, q). -/
theorem lift_cols (h2 : S7x32x2048.Reduces [0] S32x2048) (p : Fin 32) (q : Fin 2048)
    (w : Fin (S7x32x2048.size 0)) : h2.lift (ix2 p q) w = ix3 (⟨w.val, w.isLt⟩ : Fin 7) p q := by
  funext c; apply Fin.ext
  fin_cases c <;> rfl

/-- The two leading-axis sums of a [7, 7, 32, 2048] block, at (p, q): the sum over window columns of the sums over
    window rows. -/
theorem two_axis_sums (P : FVec Ideal S7x7x32x2048 .f32) (p : Fin 32) (q : Fin 2048)
    (hc : S7x7x32x2048.ShapeCasts S7x7x32x2048)
    (h1 : S7x7x32x2048.Reduces [0] S7x32x2048) (h2 : S7x32x2048.Reduces [0] S32x2048)
    (hφ : FKind.Formats FTy.f32) (hacc : (0x00000000#32 : BitVec 32) = FKind.add.neutral FTy.f32 hφ) :
    multiReduction .add [0] S32x2048 (multiReduction .add [0] S7x32x2048 (shapeCast S7x7x32x2048 P hc)
        0x00000000#32 h1 hφ hacc) 0x00000000#32 h2 hφ hacc (ix2 p q)
      = ∑ w : Fin 7, ∑ h : Fin 7, P (ix4 h w p q) := by
  refine (Ideal.multiReduction_add_single _ 0x00000000#32 h2 hφ hacc (ix2 p q)).trans ?_
  show ∑ w : Fin 7, _ = _
  refine Finset.sum_congr rfl fun w _ => ?_
  rw [lift_cols h2 p q w]
  refine (Ideal.multiReduction_add_single _ 0x00000000#32 h1 hφ hacc (ix3 _ p q)).trans ?_
  show ∑ h : Fin 7, _ = _
  refine Finset.sum_congr rfl fun h _ => ?_
  rw [lift_rows h1 _ p q h, shapeCast_self]

/-- THE BLOCK AT AN INDEX: what the body leaves at (p, q) of its [32, 2048] block is the window sum of the loaded block
    there, enumerated row-major, times the scale. -/
theorem block_apply (P : Vec Ideal S7x7x32x2048 .f32) (y : S32x2048.Idx) :
    Value.E1 (F := Ideal) P y = (∑ k : Fin 49, P (ix4 (winRow k) (winCol k) (y 0) (y 1))) * scale := by
  obtain ⟨p, q, rfl⟩ : ∃ (p : Fin 32) (q : Fin 2048), y = ix2 p q := ⟨y 0, y 1, eq_ix2 y⟩
  have e : Value.ix1_0 (ix2 p q) = ix2 p q := by
    funext a; match a with | ⟨0, _⟩ => rfl | ⟨1, _⟩ => rfl
  show (multiReduction (F := Ideal) .add [0] S32x2048 (multiReduction (F := Ideal) .add [0] S7x32x2048
      (shapeCast S7x7x32x2048 P _) 0x00000000#32 _ _ _) 0x00000000#32 _ _ _ (Value.ix1_0 (ix2 p q))) * scale = _
  rw [e]
  refine congrArg (· * scale) ?_
  exact (two_axis_sums P p q _ _ _ _ _).trans (sum_cols_rows fun h w => P (ix4 h w p q))

/-- The body's one load reads its whole input block: the rectangle's offsets are all zero. -/
theorem off4_zero : (![0, 0, 0, 0] : Fin 4 → Nat) = fun _ => 0 := funext fun a => by fin_cases a <;> rfl

/-- WHAT THE BODY LEAVES in its output buffer from an input block `x0`, at (p, q): the window sum of `x0` there times
    the scale. -/
theorem out_apply (x0 : Vec Ideal S7x7x32x2048 .f32) (y : S32x2048.Idx) :
    out0_1 (F := Ideal) x0 y = (∑ k : Fin 49, x0 (ix4 (winRow k) (winCol k) (y 0) (y 1))) * scale := by
  unfold out0_1
  rw [Value.canon1_eq, View.ld_unit_zero (S := S7x7x32x2048) off4_zero]
  exact block_apply x0 y

end Cert.KernelIdeal.PoolValue

end
-- ==== Proof.KernelArray.lean ====
/-
  The first program's pooled array as one function of its argument.

  The region reads the argument transposed to [7, 7, 128, 2048] — entry (h, w, n, ch) is x[n, ch, h, w] — in four blocks
  of 32 batch rows; grid point t reads rows 32 t … 32 t + 31 (all window positions, all channels) and writes the same
  rows of the [128, 2048] result. So what point t writes back is block t of the pooled array of x, the four blocks tile
  the result, and after the run the result IS the pooled array.
-/
import proofs.«163363_g2000004496526760_pallasbulk_449_5_alg».proof.Proof.KernelBlock
import Idealize.ShloMosaic.Lib.StableHlo.Run

noncomputable section

open scoped BigOperators

namespace Cert.KernelIdeal.PoolValue

open Cert.KernelIdeal Cert.KernelIdeal.Gen Cert.Pool
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The array the region reads: the argument with its axes permuted, window axes first. -/
theorem region_array (c : Dev nD) :
    (V m c main_v0 : S7x7x128x2048.Idx → EReal)
      = transpose S7x7x128x2048 [2, 3, 0, 1] (m ((c : Thread nD τ).loc main_arg0))
          Facts₀.transposes_S128x2048x7x7_S7x7x128x2048_2_3_0_1 := by
  dsimp only [Gen.V, Gen.hostOps0]; after_results

/-- Its entry (h, w, n, ch) is the argument's entry (n, ch, h, w). -/
theorem region_array_apply (c : Dev nD) (h w : Fin 7) (n : Fin 128) (ch : Fin 2048) :
    (V m c main_v0 : S7x7x128x2048.Idx → EReal) (ix4 h w n ch)
      = (m ((c : Thread nD τ).loc main_arg0) : SX.Idx → EReal) (ix4 n ch h w) := by
  rw [region_array]
  exact transpose_apply [2, 3, 0, 1] _ _ (ix4 h w n ch) (ix4 n ch h w) fun b => by
    match b with
    | ⟨0, _⟩ => rfl
    | ⟨1, _⟩ => rfl
    | ⟨2, _⟩ => rfl
    | ⟨3, _⟩ => rfl

/-- The printed index maps over the four grid points: the input block moves along the batch axis with the output block,
    which is block `t`; every other block index is 0. -/
theorem block_indices : ∀ t : Fin cfg0.N, win0_0.index t (0 : Fin 4) = 0 ∧ win0_0.index t (1 : Fin 4) = 0
    ∧ win0_0.index t (2 : Fin 4) = t.val ∧ win0_0.index t (3 : Fin 4) = 0
    ∧ win0_1.index t (0 : Fin 2) = t.val ∧ win0_1.index t (1 : Fin 2) = 0 :=
  (by decide +kernel : ∀ t : Fin grid0.N, _)

/-- WHAT POINT `t` WRITES BACK is block `t` of the pooled array of the argument. -/
theorem written_back (c : Dev nD) (t : Fin cfg0.N) :
    (dats m 0 c).flushed 1 t
      = ((cfg0.win 1).blk t).view.read (Elt Ideal) (pooled scale (m ((c : Thread nD τ).loc main_arg0))) := by
  rw [Value.flushed1]
  obtain ⟨e0, e1, e2, e3, e4, e5⟩ := block_indices t
  have ht : t.val < 4 := by have h := t.isLt; have hN : cfg0.N = 4 := N_0; omega
  funext j
  obtain ⟨p, q, rfl⟩ : ∃ (p : Fin 32) (q : Fin 2048), j = ix2 p q := ⟨j 0, j 1, eq_ix2 j⟩
  show out0_1 (iblk m c 0 t) (ix2 p q) = pooled scale (m ((c : Thread nD τ).loc main_arg0)) (((cfg0.win 1).blk t).view.emb (ix2 p q))
  refine (out_apply (iblk m c 0 t) (ix2 p q)).trans ?_
  have hrow : 32 * t.val + p.val < 128 := by have := p.isLt; omega
  have hemb : ((cfg0.win 1).blk t).view.emb (ix2 p q) = ix2 (⟨32 * t.val + p.val, hrow⟩ : Fin 128) q := by
    funext a; apply Fin.ext
    match a with
    | ⟨0, _⟩ => show win0_1.index t (0 : Fin 2) * 32 + 1 * p.val = 32 * t.val + p.val; omega
    | ⟨1, _⟩ => show win0_1.index t (1 : Fin 2) * 2048 + 1 * q.val = q.val; omega
  rw [hemb]
  unfold pooled
  refine congrArg (· * scale) (Finset.sum_congr rfl fun k _ => ?_)
  show V m c main_v0 (((cfg0.win 0).blk t).view.emb (ix4 (winRow k) (winCol k) p q)) = _
  have hin : ((cfg0.win 0).blk t).view.emb (ix4 (winRow k) (winCol k) p q)
      = ix4 (winRow k) (winCol k) (⟨32 * t.val + p.val, hrow⟩ : Fin 128) q := by
    funext a; apply Fin.ext
    match a with
    | ⟨0, _⟩ => show win0_0.index t (0 : Fin 4) * 7 + 1 * (winRow k).val = (winRow k).val; omega
    | ⟨1, _⟩ => show win0_0.index t (1 : Fin 4) * 7 + 1 * (winCol k).val = (winCol k).val; omega
    | ⟨2, _⟩ => show win0_0.index t (2 : Fin 4) * 32 + 1 * p.val = 32 * t.val + p.val; omega
    | ⟨3, _⟩ => show win0_0.index t (3 : Fin 4) * 2048 + 1 * q.val = q.val; omega
  rw [hin]
  exact region_array_apply m c (winRow k) (winCol k) _ q

/-- An index of the result is in point `t`'s block iff each coordinate is in the block's range on its axis. -/
theorem mem_block_iff (t : Fin cfg0.N) (i : S128x2048.Idx) :
    i ∈ ((cfg0.win 1).blk t).view.set ↔ ∀ a : Fin 2, win0_1.index t a * S32x2048.size a ≤ (i a).val ∧ (i a).val < win0_1.index t a * S32x2048.size a + S32x2048.size a := by
  show i ∈ ((View.whole main_v1).slice (win0_1.rect t)).set ↔ _
  rw [View.set_slice_whole, Rect.mem_set_unit]
  exact Iff.rfl

/-- THE BLOCKS TILE THE RESULT: row n is in the block of point n / 32. -/
theorem blocks_tile (i : S128x2048.Idx) :
    ∃ t : Fin cfg0.N, (cfg0.win 1).flush t = true ∧ i ∈ ((cfg0.win 1).blk t).view.set := by
  have hi0 : (i 0).val < 128 := (i 0).isLt
  have hi1 : (i 1).val < 2048 := (i 1).isLt
  have hN : cfg0.N = 4 := N_0
  let t : Fin cfg0.N := ⟨(i 0).val / 32, by rw [hN]; omega⟩
  obtain ⟨e0, e1, e2, e3, e4, e5⟩ := block_indices t
  have e4' : win0_1.index t (0 : Fin 2) = (i 0).val / 32 := e4
  refine ⟨t, flush0_1 t, ?_⟩
  rw [mem_block_iff]
  intro a
  match a with
  | ⟨0, _⟩ => show win0_1.index t (0 : Fin 2) * 32 ≤ (i 0).val ∧ (i 0).val < win0_1.index t (0 : Fin 2) * 32 + 32; omega
  | ⟨1, _⟩ => show win0_1.index t (1 : Fin 2) * 2048 ≤ (i 1).val ∧ (i 1).val < win0_1.index t (1 : Fin 2) * 2048 + 2048; omega

/-- THE RESULT ARRAY after the run is the pooled array of the argument. -/
theorem result_array (c : Dev nD) :
    (dats m 0 c).arrAt 1 cfg0.N = pooled scale (m ((c : Thread nD τ).loc main_arg0)) :=
  (dats m 0 c).arrAt_eq_of_cover 1 (pooled scale (m ((c : Thread nD τ).loc main_arg0)))
    (fun t _ => written_back m c t) blocks_tile

/-- THE RUN: every weakly fair execution terminates, faultless, with the result at the pooled array of the argument
    and the argument unchanged. -/
theorem run : θ_run defs (onTc (τ := τ) (main (F := Ideal))) ⟨m, fun _ => 0, ρ⟩ fun r => ∀ c : Dev nD,
      r.2.mem ((c : Thread nD τ).loc main_v1) = pooled scale (m ((c : Thread nD τ).loc main_arg0))
      ∧ r.2.mem ((c : Thread nD τ).loc main_arg0) = m ((c : Thread nD τ).loc main_arg0) :=
  (θ_run defs _ _).mono (fun r h c => ⟨(h c).1.trans (result_array m c), (h c).2⟩) (Value.run_blocks m ρ)

end Cert.KernelIdeal.PoolValue

end
-- ==== Proof.RefRows.lean ====
/-
  One block of the second program's output column, read at an index.

  At a grid point the body holds an [8192, 49] block X of the argument viewed as rows of 49 window entries, and works
  through it in 16 sub-tiles of 512 rows: it loads the sub-tile, sums each row over its 49 entries, scales, and stores
  the 512 results into the same rows of its [8192, 1] output block. Every sub-tile applies the same row function, so the
  block the 16 stores leave is, at row r,
      (Σ_k X[r, k]) · scale,
  one function of the block index; the 16 stored sub-tiles tile the block.
-/
import proofs.«163363_g2000004496526760_pallasbulk_449_5_alg».proof.Proof.Gen.ReferenceIdeal.Frame
import proofs.«163363_g2000004496526760_pallasbulk_449_5_alg».proof.Proof.WindowSum
import Idealize.ShloMosaic.PureOps.Ideal.Laws
import Idealize.ShloMosaic.Lib.Pipeline.Value

noncomputable section

open scoped BigOperators

namespace Cert.ReferenceIdeal.PoolValue

open Cert.ReferenceIdeal Cert.ReferenceIdeal.Gen Cert.Pool
open Idealize.ShloMosaic Idealize.ShloMosaic.ValueIdx

/-- The reduced index (r) with window position `k` put back behind it is (r, k). -/
theorem lift_entries (h : S512x49.Reduces [1] S512) (r : Fin 512) (k : Fin (S512x49.size 1)) :
    h.lift (ix1 r) k = ix2 r (⟨k.val, k.isLt⟩ : Fin 49) := by
  funext c; apply Fin.ext
  fin_cases c <;> rfl

/-- The row sums of a [512, 49] sub-tile kept as a [512, 1] column, at row r: the sum of the row's 49 entries. -/
theorem row_sums (v : FVec Ideal S512x49 .f32) (r : Fin 512)
    (hc : S512x49.ShapeCasts S512x49) (h : S512x49.Reduces [1] S512) (hk : S512.ShapeCasts S512x1)
    (hφ : FKind.Formats FTy.f32) (hacc : (0x00000000#32 : BitVec 32) = FKind.add.neutral FTy.f32 hφ) :
    shapeCast S512x1 (multiReduction .add [1] S512 (shapeCast S512x49 v hc) 0x00000000#32 h hφ hacc) hk (ix2 r (0 : Fin 1))
      = ∑ k : Fin 49, v (ix2 r k) := by
  refine (shapeCast_apply _ hk (ix2 r (0 : Fin 1)) (ix1 r) ?_).trans ?_
  · rw [Shape.rowMajor_val_one, Shape.rowMajor_val_two]
    show r.val = r.val * 1 + 0
    omega
  refine (Ideal.multiReduction_add_single _ 0x00000000#32 h hφ hacc (ix1 r)).trans ?_
  show ∑ k : Fin 49, _ = _
  refine Finset.sum_congr rfl fun k _ => ?_
  rw [lift_entries h r k, shapeCast_self]

/-- ONE SUB-TILE'S PAYLOAD at row r: the sum of the sub-tile's row r times the scale. -/
theorem payload_apply (v : Vec Ideal S512x49 .f32) (r : Fin 512) :
    k0_pay1 (F := Ideal) v (ix2 r (0 : Fin 1)) = (∑ k : Fin 49, v (ix2 r k)) * scale := by
  show (shapeCast S512x1 (multiReduction (F := Ideal) .add [1] S512 (shapeCast S512x49 v _) 0x00000000#32 _ _ _) _
      (ix2 r (0 : Fin 1))) * scale = _
  exact congrArg (· * scale) (row_sums v r _ _ _ _ _)

/-- The 16 sub-tiles' payloads are one function of the loaded sub-tile (the body repeats the same operations). -/
theorem k0_pay4_eq (v : Vec Ideal S512x49 .f32) : k0_pay4 (F := Ideal) v = k0_pay1 v := rfl
theorem k0_pay5_eq (v : Vec Ideal S512x49 .f32) : k0_pay5 (F := Ideal) v = k0_pay1 v := rfl
theorem k0_pay6_eq (v : Vec Ideal S512x49 .f32) : k0_pay6 (F := Ideal) v = k0_pay1 v := rfl
theorem k0_pay7_eq (v : Vec Ideal S512x49 .f32) : k0_pay7 (F := Ideal) v = k0_pay1 v := rfl
theorem k0_pay8_eq (v : Vec Ideal S512x49 .f32) : k0_pay8 (F := Ideal) v = k0_pay1 v := rfl
theorem k0_pay9_eq (v : Vec Ideal S512x49 .f32) : k0_pay9 (F := Ideal) v = k0_pay1 v := rfl
theorem k0_pay10_eq (v : Vec Ideal S512x49 .f32) : k0_pay10 (F := Ideal) v = k0_pay1 v := rfl
theorem k0_pay11_eq (v : Vec Ideal S512x49 .f32) : k0_pay11 (F := Ideal) v = k0_pay1 v := rfl
theorem k0_pay14_eq (v : Vec Ideal S512x49 .f32) : k0_pay14 (F := Ideal) v = k0_pay1 v := rfl
theorem k0_pay15_eq (v : Vec Ideal S512x49 .f32) : k0_pay15 (F := Ideal) v = k0_pay1 v := rfl
theorem k0_pay16_eq (v : Vec Ideal S512x49 .f32) : k0_pay16 (F := Ideal) v = k0_pay1 v := rfl
theorem k0_pay17_eq (v : Vec Ideal S512x49 .f32) : k0_pay17 (F := Ideal) v = k0_pay1 v := rfl
theorem k0_pay2_eq (v : Vec Ideal S512x49 .f32) : k0_pay2 (F := Ideal) v = k0_pay1 v := rfl
theorem k0_pay3_eq (v : Vec Ideal S512x49 .f32) : k0_pay3 (F := Ideal) v = k0_pay1 v := rfl
theorem k0_pay13_12_eq (v : Vec Ideal S512x49 .f32) : k0_pay13 (F := Ideal) (k0_pay12 v) = k0_pay1 v := rfl

/-- The sub-tile at row offset `o`: its payload at local row x is the row function of the whole block at row o + x. -/
theorem piece_apply (x0 : Vec Ideal S8192x49 .f32) (o : Nat)
    (hi : ∀ a, (![o, 0] : Fin 2 → Nat) a + S512x49.size a ≤ S8192x49.size a)
    (ho : ∀ a, (![o, 0] : Fin 2 → Nat) a + S512x1.size a ≤ S8192x1.size a) (x : S512x1.Idx) :
    k0_pay1 (F := Ideal) (View.ld x0 (Rect.unit (s := S8192x49) ![o, 0] S512x49.size hi)) x
      = (fun y : S8192x1.Idx => (∑ k : Fin 49, x0 (ix2 (y 0) k)) * scale)
          ((Rect.unit (s := S8192x1) ![o, 0] S512x1.size ho).emb x) := by
  obtain ⟨r, z, rfl⟩ : ∃ (r : Fin 512) (z : Fin 1), x = ix2 r z := ⟨x 0, x 1, eq_ix2 x⟩
  obtain rfl : z = 0 := Subsingleton.elim _ _
  rw [payload_apply]
  refine congrArg (· * scale) (Finset.sum_congr rfl fun k _ => ?_)
  show x0 ((Rect.unit (s := S8192x49) ![o, 0] S512x49.size hi).idx (ix2 r k)) = x0 (ix2 _ k)
  refine congrArg x0 (funext fun a => Fin.ext ?_)
  match a with
  | ⟨0, _⟩ => rfl
  | ⟨1, _⟩ => show 0 + 1 * k.val = k.val; omega

/-- WHAT THE BODY LEAVES in its [8192, 1] output block from an input block `x0`, at row r: the sum of row r of `x0`
    times the scale. -/
theorem out_apply (x0 : Vec Ideal S8192x49 .f32) (y : S8192x1.Idx) :
    out0_1 (F := Ideal) x0 y = (∑ k : Fin 49, x0 (ix2 (y 0) k)) * scale := by
  unfold out0_1
  rw [k0_pay13_12_eq, k0_pay2_eq, k0_pay3_eq, k0_pay4_eq, k0_pay5_eq, k0_pay6_eq, k0_pay7_eq, k0_pay8_eq, k0_pay9_eq,
    k0_pay10_eq, k0_pay11_eq, k0_pay14_eq, k0_pay15_eq, k0_pay16_eq, k0_pay17_eq]
  refine View.canon_apply_of_pieces (fun y : S8192x1.Idx => (∑ k : Fin 49, x0 (ix2 (y 0) k)) * scale) _ ?_ y
    (cover0_1 _ _ _ _ _ _ _ _ _ _ _ _ _ _ _ _ y)
  intro pc hpc
  simp only [List.mem_cons, List.mem_nil_iff, or_false] at hpc
  rcases hpc with rfl | rfl | rfl | rfl | rfl | rfl | rfl | rfl | rfl | rfl | rfl | rfl | rfl | rfl | rfl | rfl
  · exact fun x => piece_apply x0 7680 Facts₀.inb_S8192x49_S512x49_7680_0 Facts₀.inb_S8192x1_S512x1_7680_0 x
  · exact fun x => piece_apply x0 7168 Facts₀.inb_S8192x49_S512x49_7168_0 Facts₀.inb_S8192x1_S512x1_7168_0 x
  · exact fun x => piece_apply x0 6656 Facts₀.inb_S8192x49_S512x49_6656_0 Facts₀.inb_S8192x1_S512x1_6656_0 x
  · exact fun x => piece_apply x0 6144 Facts₀.inb_S8192x49_S512x49_6144_0 Facts₀.inb_S8192x1_S512x1_6144_0 x
  · exact fun x => piece_apply x0 5632 Facts₀.inb_S8192x49_S512x49_5632_0 Facts₀.inb_S8192x1_S512x1_5632_0 x
  · exact fun x => piece_apply x0 5120 Facts₀.inb_S8192x49_S512x49_5120_0 Facts₀.inb_S8192x1_S512x1_5120_0 x
  · exact fun x => piece_apply x0 4608 Facts₀.inb_S8192x49_S512x49_4608_0 Facts₀.inb_S8192x1_S512x1_4608_0 x
  · exact fun x => piece_apply x0 4096 Facts₀.inb_S8192x49_S512x49_4096_0 Facts₀.inb_S8192x1_S512x1_4096_0 x
  · exact fun x => piece_apply x0 3584 Facts₀.inb_S8192x49_S512x49_3584_0 Facts₀.inb_S8192x1_S512x1_3584_0 x
  · exact fun x => piece_apply x0 3072 Facts₀.inb_S8192x49_S512x49_3072_0 Facts₀.inb_S8192x1_S512x1_3072_0 x
  · exact fun x => piece_apply x0 2560 Facts₀.inb_S8192x49_S512x49_2560_0 Facts₀.inb_S8192x1_S512x1_2560_0 x
  · exact fun x => piece_apply x0 2048 Facts₀.inb_S8192x49_S512x49_2048_0 Facts₀.inb_S8192x1_S512x1_2048_0 x
  · exact fun x => piece_apply x0 1536 Facts₀.inb_S8192x49_S512x49_1536_0 Facts₀.inb_S8192x1_S512x1_1536_0 x
  · exact fun x => piece_apply x0 1024 Facts₀.inb_S8192x49_S512x49_1024_0 Facts₀.inb_S8192x1_S512x1_1024_0 x
  · exact fun x => piece_apply x0 512 Facts₀.inb_S8192x49_S512x49_512_0 Facts₀.inb_S8192x1_S512x1_512_0 x
  · exact fun x => piece_apply x0 0 Facts₀.inb_S8192x49_S512x49_0_0 Facts₀.inb_S8192x1_S512x1_0_0 x

end Cert.ReferenceIdeal.PoolValue

end
-- ==== Proof.RefArray.lean ====
/-
  The second program's output column as one function of the array its region reads.

  The region reads the argument viewed as 262144 rows of 49 window entries (row 2048 n + ch holds channel (n, ch)'s
  window, flattened row-major) in 32 blocks of 8192 rows; grid point t reads rows 8192 t … 8192 t + 8191 and writes the
  same rows of the [262144, 1] output column. So what point t writes back is block t of the column of scaled row sums,
  the 32 blocks tile the column, and after the region the column IS the scaled row sums of the rows array.
-/
import proofs.«163363_g2000004496526760_pallasbulk_449_5_alg».proof.Proof.RefRows
import Idealize.ShloMosaic.Lib.StableHlo.Run

noncomputable section

open scoped BigOperators

namespace Cert.ReferenceIdeal.PoolValue

open Cert.ReferenceIdeal Cert.ReferenceIdeal.Gen Cert.Pool
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The column of scaled row sums of a rows array `X`: at row r, the sum of the row's 49 entries times the scale. -/
def rowSums (X : S262144x49.Idx → EReal) : S262144x1.Idx → EReal := fun i =>
  (∑ k : Fin 49, X (ix2 (i 0) k)) * scale

/-- The array the region reads: the argument reshaped to rows of 49. -/
theorem region_array (c : Dev nD) :
    (V m c main_v0 : S262144x49.Idx → EReal)
      = shapeCast S262144x49 (m ((c : Thread nD τ).loc main_arg0)) Facts₀.shapeCasts_S128x2048x7x7_S262144x49 := by
  show StableHlo.after hostOps0 (fun b => m (c, b)) (Proc.devRef .tc main_v0) = _
  after_results
  rfl

/-- Its entry (2048 n + ch, k) is the argument's entry (n, ch, k / 7, k % 7): both sit at the same row-major
    position. -/
theorem region_array_apply (c : Dev nD) (n : Fin 128) (ch : Fin 2048) (k : Fin 49)
    (hrow : 2048 * n.val + ch.val < 262144) :
    (V m c main_v0 : S262144x49.Idx → EReal) (ix2 (⟨2048 * n.val + ch.val, hrow⟩ : Fin 262144) k)
      = (m ((c : Thread nD τ).loc main_arg0) : SX.Idx → EReal) (ix4 n ch (winRow k) (winCol k)) := by
  rw [region_array]
  refine shapeCast_apply _ _ _ (ix4 n ch (winRow k) (winCol k)) ?_
  rw [Shape.rowMajor_val_four, Shape.rowMajor_val_two]
  show ((n.val * 2048 + ch.val) * 7 + k.val / 7) * 7 + k.val % 7 = (2048 * n.val + ch.val) * 49 + k.val
  omega

/-- The printed index maps over the 32 grid points: input and output block are both block `t` of their rows. -/
theorem block_indices : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- WHAT POINT `t` WRITES BACK is block `t` of the scaled row sums of the rows array. -/
theorem written_back (c : Dev nD) (t : Fin cfg0.N) :
    (dats m 0 c).flushed 1 t = ((cfg0.win 1).blk t).view.read (Elt Ideal) (rowSums (V m c main_v0)) := by
  show (cfg0.win 1).cut (grid0.coords t) ((dats m 0 c).after 1 t) = _
  rw [after0_1]
  obtain ⟨e0, e1, e2, e3⟩ := block_indices t
  funext j
  obtain ⟨r, z, rfl⟩ : ∃ (r : Fin 8192) (z : Fin 1), j = ix2 r z := ⟨j 0, j 1, eq_ix2 j⟩
  show out0_1 (iblk m c 0 t) (ix2 r z) = rowSums (V m c main_v0) (((cfg0.win 1).blk t).view.emb (ix2 r z))
  refine (out_apply (iblk m c 0 t) (ix2 r z)).trans ?_
  unfold rowSums
  refine congrArg (· * scale) (Finset.sum_congr rfl fun k _ => ?_)
  show (V m c main_v0 : S262144x49.Idx → EReal) (((cfg0.win 0).blk t).view.emb (ix2 r k))
      = (V m c main_v0 : S262144x49.Idx → EReal) (ix2 ((((cfg0.win 1).blk t).view.emb (ix2 r z)) 0) k)
  refine congrArg (V m c main_v0 : S262144x49.Idx → EReal) (funext fun a => Fin.ext ?_)
  match a with
  | ⟨0, _⟩ => show win0_0.index t (0 : Fin 2) * 8192 + 1 * r.val = win0_1.index t (0 : Fin 2) * 8192 + 1 * r.val; omega
  | ⟨1, _⟩ => show win0_0.index t (1 : Fin 2) * 49 + 1 * k.val = k.val; omega

/-- An index of the column is in point `t`'s block iff each coordinate is in the block's range on its axis. -/
theorem mem_block_iff (t : Fin cfg0.N) (i : S262144x1.Idx) :
    i ∈ ((cfg0.win 1).blk t).view.set ↔ ∀ a : Fin 2, win0_1.index t a * S8192x1.size a ≤ (i a).val ∧ (i a).val < win0_1.index t a * S8192x1.size a + S8192x1.size a := by
  show i ∈ ((View.whole main_v1).slice (win0_1.rect t)).set ↔ _
  rw [View.set_slice_whole, Rect.mem_set_unit]
  exact Iff.rfl

/-- THE BLOCKS TILE THE COLUMN: row r is in the block of point r / 8192. -/
theorem blocks_tile (i : S262144x1.Idx) :
    ∃ t : Fin cfg0.N, (cfg0.win 1).flush t = true ∧ i ∈ ((cfg0.win 1).blk t).view.set := by
  have hi0 : (i 0).val < 262144 := (i 0).isLt
  have hi1 : (i 1).val < 1 := (i 1).isLt
  have hN : cfg0.N = 32 := N_0
  let t : Fin cfg0.N := ⟨(i 0).val / 8192, by rw [hN]; omega⟩
  obtain ⟨e0, e1, e2, e3⟩ := block_indices t
  have e2' : win0_1.index t (0 : Fin 2) = (i 0).val / 8192 := e2
  refine ⟨t, flush0_1 t, ?_⟩
  rw [mem_block_iff]
  intro a
  match a with
  | ⟨0, _⟩ => show win0_1.index t (0 : Fin 2) * 8192 ≤ (i 0).val ∧ (i 0).val < win0_1.index t (0 : Fin 2) * 8192 + 8192; omega
  | ⟨1, _⟩ => show win0_1.index t (1 : Fin 2) * 1 ≤ (i 1).val ∧ (i 1).val < win0_1.index t (1 : Fin 2) * 1 + 1; omega

/-- THE OUTPUT COLUMN after the region is the scaled row sums of the rows array. -/
theorem column_array (c : Dev nD) : (dats m 0 c).arrAt 1 cfg0.N = rowSums (V m c main_v0) :=
  (dats m 0 c).arrAt_eq_of_cover 1 (rowSums (V m c main_v0)) (fun t _ => written_back m c t) blocks_tile

end Cert.ReferenceIdeal.PoolValue

end
-- ==== Proof.RefTail.lean ====
/-
  The second program's result as one function of its argument.

  After the region the [262144, 1] output column is reshaped to a vector of 262144 and then to [128, 2048]: row-major
  position is kept, so result entry (n, ch) is the column's row 2048 n + ch — the scaled sum of that row of the rows
  array, whose 49 entries are channel (n, ch)'s window flattened row-major. So the result is the pooled array of the
  argument.
-/
import proofs.«163363_g2000004496526760_pallasbulk_449_5_alg».proof.Proof.RefArray

noncomputable section

open scoped BigOperators

namespace Cert.ReferenceIdeal.PoolValue

open Cert.ReferenceIdeal Cert.ReferenceIdeal.Gen Cert.Pool
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The result after the two reshapes that follow the region: the column of scaled row sums, its unit axis dropped,
    cut into 128 rows of 2048. -/
theorem tail_eq (c : Dev nD) :
    (Pipeline.afterTail₀ cfgs (dats m) 0 (V0 m) [hostOps1] c main_v3 : S128x2048.Idx → EReal)
      = shapeCast S128x2048 (shapeCast S262144 (rowSums (V m c main_v0)) Facts₀.shapeCasts_S262144x1_S262144)
          Facts₀.shapeCasts_S262144_S128x2048 := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v1)
      = rowSums (V m c main_v0) :=
    (Pipeline.withArrays_arr spec0 launch0.win.arr_inj c _ _ 1).trans (column_array m c)
  rw [hw]
  rfl

/-- THE RESULT is the pooled array of the argument. -/
theorem result_eq (c : Dev nD) :
    (Pipeline.afterTail₀ cfgs (dats m) 0 (V0 m) [hostOps1] c main_v3 : S128x2048.Idx → EReal)
      = pooled scale (m ((c : Thread nD τ).loc main_arg0)) := by
  rw [tail_eq]
  funext i
  obtain ⟨n, ch, rfl⟩ : ∃ (n : Fin 128) (ch : Fin 2048), i = ix2 n ch := ⟨i 0, i 1, eq_ix2 i⟩
  have hrow : 2048 * n.val + ch.val < 262144 := by have := n.isLt; have := ch.isLt; omega
  refine (shapeCast_apply _ _ (ix2 n ch) (ix1 (⟨2048 * n.val + ch.val, hrow⟩ : Fin 262144)) ?_).trans ?_
  · rw [Shape.rowMajor_val_one, Shape.rowMajor_val_two]
    show 2048 * n.val + ch.val = n.val * 2048 + ch.val
    omega
  refine (shapeCast_apply _ _ (ix1 _) (ix2 (⟨2048 * n.val + ch.val, hrow⟩ : Fin 262144) (0 : Fin 1)) ?_).trans ?_
  · rw [Shape.rowMajor_val_one, Shape.rowMajor_val_two]
    show (2048 * n.val + ch.val) * 1 + 0 = 2048 * n.val + ch.val
    omega
  show rowSums (V m c main_v0) (ix2 (⟨2048 * n.val + ch.val, hrow⟩ : Fin 262144) (0 : Fin 1))
      = pooled scale (m ((c : Thread nD τ).loc main_arg0)) (ix2 n ch)
  unfold rowSums pooled
  exact congrArg (· * scale) (Finset.sum_congr rfl fun k _ => region_array_apply m c n ch k hrow)

/-- THE RUN: every weakly fair execution terminates, faultless, with the result at the pooled array of the argument
    and the argument unchanged. -/
theorem run : θ_run defs (onTc (τ := τ) (main (F := Ideal))) ⟨m, fun _ => 0, ρ⟩ fun r => ∀ c : Dev nD,
      r.2.mem ((c : Thread nD τ).loc main_v3) = pooled scale (m ((c : Thread nD τ).loc main_arg0))
      ∧ r.2.mem ((c : Thread nD τ).loc main_arg0) = m ((c : Thread nD τ).loc main_arg0) :=
  (θ_run defs _ _).mono (fun r h c =>
      ⟨((h c).2 main_v3 (Pipeline.mem_restRefs_of main_v3 (by decide) (by decide))).trans (result_eq m c),
       ((h c).2 main_arg0 (Pipeline.mem_restRefs_of main_arg0 (by decide) (by decide))).trans (W_main_arg0 m (dats m) c)⟩)
    (run_main m ρ)

end Cert.ReferenceIdeal.PoolValue

end
-- ==== Proof.lean ====
/-
  Global average pooling: the kernel and the reference compute the same [128, 2048] array on the extended reals.

  Both programs end with, at (n, ch), the sum of the 49 entries of channel (n, ch)'s 7 × 7 window times one and the same
  f32 scale word (the word nearest 1/49, read as the dyadic it denotes on both sides, so its value never matters).
    • The kernel transposes the argument to [7, 7, 128, 2048] and, block of 32 batch rows by block, sums over the window
      rows and then over the window columns:  (Σ_w Σ_h x[n, ch, h, w]) · scale.
    • The reference views the argument as 262144 rows of 49, sums each row in sub-tiles of 512 rows inside blocks of
      8192, and reshapes the column of results back:  (Σ_k x[n, ch, k / 7, k % 7]) · scale.
  A finite sum on the extended reals does not depend on the order or grouping of its terms (a commutative monoid, the
  infinities included), so the two are the same function of the argument, `Cert.Pool.pooled`; finiteness of the inputs
  is not used. The three frames are the programs' generated frames; the kernel's idealization rewrote nothing, so
  `preserves` is trivial.
-/
import proofs.«163363_g2000004496526760_pallasbulk_449_5_alg».proof.Defs
import proofs.«163363_g2000004496526760_pallasbulk_449_5_alg».proof.Proof.Gen.Kernel
import proofs.«163363_g2000004496526760_pallasbulk_449_5_alg».proof.Proof.Gen.Kernel.Skeleton
import proofs.«163363_g2000004496526760_pallasbulk_449_5_alg».proof.Proof.Gen.Kernel.Launch
import proofs.«163363_g2000004496526760_pallasbulk_449_5_alg».proof.Proof.Gen.Kernel.Points
import proofs.«163363_g2000004496526760_pallasbulk_449_5_alg».proof.Proof.Gen.Kernel.Frame
import proofs.«163363_g2000004496526760_pallasbulk_449_5_alg».proof.Proof.Gen.KernelIdeal
import proofs.«163363_g2000004496526760_pallasbulk_449_5_alg».proof.Proof.Gen.KernelIdeal.Skeleton
import proofs.«163363_g2000004496526760_pallasbulk_449_5_alg».proof.Proof.Gen.KernelIdeal.Launch
import proofs.«163363_g2000004496526760_pallasbulk_449_5_alg».proof.Proof.Gen.KernelIdeal.Points
import proofs.«163363_g2000004496526760_pallasbulk_449_5_alg».proof.Proof.Gen.KernelIdeal.Frame
import proofs.«163363_g2000004496526760_pallasbulk_449_5_alg».proof.Proof.Gen.ReferenceIdeal
import proofs.«163363_g2000004496526760_pallasbulk_449_5_alg».proof.Proof.Gen.ReferenceIdeal.Skeleton
import proofs.«163363_g2000004496526760_pallasbulk_449_5_alg».proof.Proof.Gen.ReferenceIdeal.Launch
import proofs.«163363_g2000004496526760_pallasbulk_449_5_alg».proof.Proof.Gen.ReferenceIdeal.Points
import proofs.«163363_g2000004496526760_pallasbulk_449_5_alg».proof.Proof.Gen.ReferenceIdeal.Frame
import proofs.«163363_g2000004496526760_pallasbulk_449_5_alg».proof.Proof.Gen.Pre_finite_inputs
import proofs.«163363_g2000004496526760_pallasbulk_449_5_alg».proof.Proof.Gen.KernelIdeal.Value
import Idealize.ShloMosaic.Adequacy
import Idealize.ShloMosaic.Init
import proofs.«163363_g2000004496526760_pallasbulk_449_5_alg».proof.Proof.KernelArray
import proofs.«163363_g2000004496526760_pallasbulk_449_5_alg».proof.Proof.RefTail

noncomputable section

namespace Cert.Proof

open Idealize.ShloMosaic Idealize.ShloMosaic.TcCoe Idealize.SL.Sem Cert.Pool

/-- Both idealized programs, from memories agreeing on the argument, end with the pooled array of the argument. -/
theorem algebraic : Cert.algebraic_KernelIdeal_ReferenceIdeal := by
  intro m ρ m' ρ' _ hagree
  refine ⟨fun c => pooled scale (m ((c.tc : Thread Cert.KernelIdeal.nD Cert.KernelIdeal.τ).loc Cert.KernelIdeal.main_arg0)),
    Cert.KernelIdeal.PoolValue.run m ρ, ?_⟩
  refine (θ_run Cert.ReferenceIdeal.defs _ _).mono (fun r h c => ⟨(h c).1.trans ?_, (h c).2⟩)
    (Cert.ReferenceIdeal.PoolValue.run m' ρ')
  rw [hagree c]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
